-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x4096x64 : Shape := ⟨4, ![2, 8, 4096, 64]⟩
abbrev S_ : Shape := ⟨0, ![]⟩

class Facts : Prop where
  bcast_S_S2x8x4096x64 : S_.BroadcastsInDim S2x8x4096x64 (![] : Fin 0 → Fin S2x8x4096x64.rank)
  reducesTo_S2x8x4096x64_S_d0_1_2_3 : S2x8x4096x64.ReducesTo [0, 1, 2, 3] S_
  h_S_ : 0 < S_.numel

variable [Facts]

def fn {F : FTy → Type} [FloatOps F] (main_arg0 : FVec F S2x8x4096x64 .f32) (main_arg1 : FVec F S2x8x4096x64 .f32) (main_arg2 : FVec F S2x8x4096x64 .f32) : IVec S_ 1 :=
  let main_v0 : FVec F S2x8x4096x64 .f32 := Host.absf main_arg0
  let main_cst : FVec F S_ .f32 := constant S_ .f32 0x7F800000#32
  let main_v1 : FVec F S2x8x4096x64 .f32 := broadcastInDim S2x8x4096x64 ![] bcast_S_S2x8x4096x64 main_cst
  let main_v2 : IVec S2x8x4096x64 1 := cmpf .olt main_v0 main_v1
  let main_c : IVec S_ 1 := constantI S_ 1 1#1
  let main_v3 : IVec S_ 1 := (fun x v => Host.reduce IntOp.andi x v reducesTo_S2x8x4096x64_S_d0_1_2_3 h_S_) main_v2 main_c
  let main_v4 : FVec F S2x8x4096x64 .f32 := Host.absf main_arg1
  let main_cst_0 : FVec F S_ .f32 := constant S_ .f32 0x7F800000#32
  let main_v5 : FVec F S2x8x4096x64 .f32 := broadcastInDim S2x8x4096x64 ![] bcast_S_S2x8x4096x64 main_cst_0
  let main_v6 : IVec S2x8x4096x64 1 := cmpf .olt main_v4 main_v5
  let main_c_1 : IVec S_ 1 := constantI S_ 1 1#1
  let main_v7 : IVec S_ 1 := (fun x v => Host.reduce IntOp.andi x v reducesTo_S2x8x4096x64_S_d0_1_2_3 h_S_) main_v6 main_c_1
  let main_v8 : IVec S_ 1 := andi main_v3 main_v7
  let main_v9 : FVec F S2x8x4096x64 .f32 := Host.absf main_arg2
  let main_cst_2 : FVec F S_ .f32 := constant S_ .f32 0x7F800000#32
  let main_v10 : FVec F S2x8x4096x64 .f32 := broadcastInDim S2x8x4096x64 ![] bcast_S_S2x8x4096x64 main_cst_2
  let main_v11 : IVec S2x8x4096x64 1 := cmpf .olt main_v9 main_v10
  let main_c_3 : IVec S_ 1 := constantI S_ 1 1#1
  let main_v12 : IVec S_ 1 := (fun x v => Host.reduce IntOp.andi x v reducesTo_S2x8x4096x64_S_d0_1_2_3 h_S_) main_v11 main_c_3
  let main_v13 : IVec S_ 1 := andi main_v8 main_v12
  main_v13
-- ==== Kernel.lean ====
abbrev S2x8x4096x64 : Shape := ⟨4, ![2, 8, 4096, 64]⟩
abbrev S1x1x1024x64 : Shape := ⟨4, ![1, 1, 1024, 64]⟩
abbrev S1x1x4096x64 : Shape := ⟨4, ![1, 1, 4096, 64]⟩
abbrev S4096x64 : Shape := ⟨2, ![4096, 64]⟩
abbrev S1024x64 : Shape := ⟨2, ![1024, 64]⟩
abbrev S512x64 : Shape := ⟨2, ![512, 64]⟩
abbrev S1024x512 : Shape := ⟨2, ![1024, 512]⟩

abbrev nBuf : Space → Nat
  | .hbm => 4
  | .vmem => 11
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S2x8x4096x64, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x4096x64, .f32⟩
  | .local _ .vmem, ⟨3, _⟩ => ⟨S1x1x4096x64, .f32⟩
  | .local _ .vmem, ⟨4, _⟩ => ⟨S1x1x4096x64, .f32⟩
  | .local _ .vmem, ⟨5, _⟩ => ⟨S1x1x4096x64, .f32⟩
  | .local _ .vmem, ⟨6, _⟩ => ⟨S1x1x1024x64, .f32⟩
  | .local _ .vmem, ⟨7, _⟩ => ⟨S1x1x1024x64, .f32⟩
  | .local _ .vmem, ⟨8, _⟩ => ⟨S4096x64, .bf16⟩
  | .local _ .vmem, ⟨9, _⟩ => ⟨S4096x64, .bf16⟩
  | .local _ .vmem, ⟨10, _⟩ => ⟨S1024x64, .f32⟩
  | _, _ => ⟨S2x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

@[reducible] def k0_t1_loop : Scf.Loop 32 :=
  let c0_i32_6 : BitVec 32 := 0#32
  let c8_i32 : BitVec 32 := 8#32
  let v10 : BitVec 32 := Scalar.addi c0_i32_6 c8_i32
  let c1_i32 : BitVec 32 := 1#32
  ⟨c0_i32_6, v10, c1_i32⟩
def k0_mult1 (k0_t1 : Fin k0_t1_loop.trips) : BitVec 32 :=
  let c0_i32_15 : BitVec 32 := 0#32
  let c0_i32_6 : BitVec 32 := 0#32
  let c1_i32 : BitVec 32 := 1#32
  let arg10 : BitVec 32 := Scf.iv c0_i32_6 c1_i32 k0_t1
  let c1_i32_14 : BitVec 32 := 1#32
  let v15 : BitVec 32 := Scalar.muli arg10 c1_i32_14
  let v16 : BitVec 32 := Scalar.addi c0_i32_15 v15
  let c512_i32 : BitVec 32 := 512#32
  let v17 : BitVec 32 := Scalar.muli v16 c512_i32
  v17
def k0_off1 (k0_t1 : Fin k0_t1_loop.trips) : Fin 2 → Nat :=
  let c0_i32_15 : BitVec 32 := 0#32
  let c0_i32_6 : BitVec 32 := 0#32
  let c1_i32 : BitVec 32 := 1#32
  let arg10 : BitVec 32 := Scf.iv c0_i32_6 c1_i32 k0_t1
  let c1_i32_14 : BitVec 32 := 1#32
  let v15 : BitVec 32 := Scalar.muli arg10 c1_i32_14
  let v16 : BitVec 32 := Scalar.addi c0_i32_15 v15
  let c512_i32 : BitVec 32 := 512#32
  let v17 : BitVec 32 := Scalar.muli v16 c512_i32
  let v18 : BitVec 32 := v17
  let v19 : Index := Scalar.indexCast v18
  let c0_16 : Index := 0#32
  ![v19.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S512x64 : 0 < S512x64.numel
  shapeCasts_S1024x64_S1x1x1024x64 : S1024x64.ShapeCasts S1x1x1024x64
  dot_S1024x64_S512x64_S1024x512_1_1_0_0_n_n_wf : DotDims.WF S1024x64 S512x64 S1024x512 [1] [1] [0] [0] [] []
  dot_S1024x512_S512x64_S1024x64_1_0_0_1_n_n_wf : DotDims.WF S1024x512 S512x64 S1024x64 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x64.size a ≤ S4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S2x8x4096x64.size a
  hwx0_0 : ∀ i : grid0.Coords, EltTy.bits .f32 = 32 ∨ (Rect.block (s := S2x8x4096x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x64.size a ≤ S2x8x4096x64.size a
  hwx0_1 : ∀ i : grid0.Coords, EltTy.bits .f32 = 32 ∨ (Rect.block (s := S2x8x4096x64) S1x1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x64.size a ≤ S2x8x4096x64.size a
  hwx0_2 : ∀ i : grid0.Coords, EltTy.bits .f32 = 32 ∨ (Rect.block (s := S2x8x4096x64) S1x1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x64.size a ≤ S2x8x4096x64.size a
  hwx0_3 : ∀ i : grid0.Coords, EltTy.bits .f32 = 32 ∨ (Rect.block (s := S2x8x4096x64) S1x1x1024x64.size (cc0_transform_3 i) (hinb0_3 i)).WholeWords (EltTy.packing .f32)

variable [Facts₀]

def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x4096x64 : Shape := ⟨4, ![2, 8, 4096, 64]⟩
abbrev S2x8x4096x4096 : Shape := ⟨4, ![2, 8, 4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x8x4096x64, .f32⟩
  | .hbm, ⟨3, _⟩ => ⟨S2x8x4096x4096, .f32⟩
  | .hbm, ⟨4, _⟩ => ⟨S_, .f32⟩
  | .hbm, ⟨5, _⟩ => ⟨S2x8x4096x4096, .f32⟩
  | .hbm, ⟨6, _⟩ => ⟨S2x8x4096x4096, .f32⟩
  | .hbm, ⟨7, _⟩ => ⟨S_, .f32⟩
  | .hbm, ⟨8, _⟩ => ⟨S2x8x4096x4096, .f32⟩
  | .hbm, ⟨9, _⟩ => ⟨S2x8x4096x4096, .f32⟩
  | .hbm, ⟨10, _⟩ => ⟨S2x8x4096x64, .f32⟩
  | _, _ => ⟨S2x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S_S2x8x4096x4096 : S_.BroadcastsInDim S2x8x4096x4096 (![] : Fin 0 → Fin S2x8x4096x4096.rank)
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]

variable [Facts₀]

def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf

class Facts : Prop extends Facts₀ where

variable [Facts]
-- ==== Proof.KernelAcc.lean ====
/-
  The kernel body's arithmetic as pure functions of what it loads.

  At one grid point the body holds a [1024, 64] tile of queries and, in scratch, the 4096 key rows and the 4096
  value rows of the point's head. It zeroes an accumulator and makes eight trips; trip k takes key rows and value
  rows 512·k … 512·k + 511, forms the [1024, 512] tile of clipped scaled scores of the query tile against those
  key rows, multiplies it into the value rows and adds the product to the accumulator. The output tile is the
  accumulator after the eighth trip. Here that recurrence is written over the generated payload terms, with no
  memory in it.
-/
import proofs.«143925_j72378788872873_2_alg».proof.Proof.Gen.KernelIdeal.Skeleton
import Idealize.ShloMosaic.Lib.Pipeline.Value

noncomputable section

namespace Cert.KernelIdeal.Acc

open Idealize.ShloMosaic Idealize.SL.Sem Cert.KernelIdeal Cert.KernelIdeal.Gen

variable {F : FTy → Type} [FloatOps F]

/-- The 512 rows of a [4096, 64] scratch buffer that trip k loads. -/
abbrev tripRect (k : Fin k0_t1_loop.trips) : Rect S4096x64 :=
  Rect.unit (s := S4096x64) (k0_off1 k) S512x64.size (k0_off1_inb k)

/-- One trip: the accumulator plus the trip's scores times the trip's value rows. -/
def accStep (q : Vec F S1x1x1024x64 .f32) (ks vs : Vec F S4096x64 .bf16) (k : Fin k0_t1_loop.trips)
    (acc : Vec F S1024x64 .f32) : Vec F S1024x64 .f32 :=
  k0_pay4 q (View.ld ks (tripRect k)) (View.ld vs (tripRect k)) acc

/-- The accumulator after the first n trips, from the contents a0 it starts with. -/
def accFrom (q : Vec F S1x1x1024x64 .f32) (ks vs : Vec F S4096x64 .bf16) (a0 : Vec F S1024x64 .f32) :
    ℕ → Vec F S1024x64 .f32
  | 0 => a0
  | n + 1 => if h : n < k0_t1_loop.trips then accStep q ks vs ⟨n, h⟩ (accFrom q ks vs a0 n) else accFrom q ks vs a0 n

/-- What a grid point leaves in its output tile, from its query tile and the key and value blocks of its head. -/
def pointOut (q : Vec F S1x1x1024x64 .f32) (kblk vblk : Vec F S1x1x4096x64 .f32) : Vec F S1x1x1024x64 .f32 :=
  k0_pay5 (accFrom q (k0_pay1 kblk) (k0_pay2 vblk) (k0_pay3 (F := F)) k0_t1_loop.trips)

end Cert.KernelIdeal.Acc

end
-- ==== Proof.KernelTrips.lean ====
/-
  What the kernel body leaves in memory, read as values.

  The body's run is known as lists of stores. A trip of the counted loop makes one store: the whole accumulator,
  with the trip's step applied to what the accumulator held. So the accumulator after n trips is the n-fold
  recurrence over the contents it started with, by induction on n (a store of a whole buffer, read back whole, is
  its payload whatever was stored before). At a grid point that begins a head (the first of its four query tiles)
  the body first stores the head's key and value blocks, cast, into the two scratch buffers; at the other points
  the scratch buffers still hold what the point before left. In both cases the output tile ends as the point's
  closed form of the query tile and of the two scratch contents.
-/
import proofs.«143925_j72378788872873_2_alg».proof.Proof.Gen.KernelIdeal.Frame
import proofs.«143925_j72378788872873_2_alg».proof.Proof.KernelAcc
import Idealize.ShloMosaic.Lib.Pipeline.Value
import Idealize.ShloMosaic.Lib.Tactic

set_option maxRecDepth 16384

noncomputable section

namespace Cert.KernelIdeal.Acc

open Idealize.ShloMosaic Idealize.ShloMosaic.TcCoe Idealize.SL.Sem Idealize.ShloMosaic.Tactic
open Cert.KernelIdeal Cert.KernelIdeal.Gen

variable {F : FTy → Type} [FloatOps F]

/-- The zero offsets of a rank-2 and of a rank-4 buffer, as the constant function. -/
theorem zero2 : (![0, 0] : Fin 2 → ℕ) = fun _ => 0 := by
  funext a; match a with | ⟨0, _⟩ => rfl | ⟨1, _⟩ => rfl
theorem zero4 : (![0, 0, 0, 0] : Fin 4 → ℕ) = fun _ => 0 := by
  funext a; match a with | ⟨0, _⟩ => rfl | ⟨1, _⟩ => rfl | ⟨2, _⟩ => rfl | ⟨3, _⟩ => rfl

/-- A store of a whole buffer, made last, is what the buffer reads afterwards. -/
theorem read_store_whole {sg : RefSig} {κ : Kind} {sp : Space} {S : Shape} {e : EltTy} {Val : EltTy → Type}
    [∀ e, Nonempty (Val e)] (v : View sg κ sp S e) (f : v.ty.Contents Val) {off : Fin S.rank → ℕ}
    (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- ONE TRIP's store: the whole accumulator, with the step's payload of the trip's key rows, the trip's value rows
    and the accumulator as the trip finds it. -/
theorem trip_piece (𝒱 : Variants) (c : Dev nD) (bd : Option 𝒱.V) (i : grid0.Coords) (arg3 : Memref sig .tc .vmem S1x1x1024x64 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x1024x64 .f32) (harg6 : arg6.IsWhole) (arg7 : Memref sig .tc .vmem S4096x64 .bf16) (harg7 : arg7.IsWhole) (arg8 : Memref sig .tc .vmem S4096x64 .bf16) (harg8 : arg8.IsWhole) (arg9 : Memref sig .tc .vmem S1024x64 .f32) (harg9 : arg9.IsWhole)
    (v3 : Vec F S1x1x1024x64 .f32) (X7 : BufTy.Contents (Elt F) arg7.view.ty) (X8 : BufTy.Contents (Elt F) arg8.view.ty)
    (k : Fin k0_t1_loop.trips) (f : BufTy.Contents (Elt F) arg9.view.ty) :
    tripL_k0_t1 (F := F) 𝒱 c bd i arg3 harg3 arg4 harg4 arg5 harg5 arg6 harg6 arg7 harg7 arg8 harg8 arg9 harg9 v3 X7 X8 k f
      = [⟨Rect.unit (s := S1024x64) ![0, 0] S1024x64.size inb_S1024x64_S1024x64_0_0,
          k0_pay4 v3 (View.readAt (Elt F) arg7.view (tripRect k).toLoadRect X7)
            (View.readAt (Elt F) arg8.view (tripRect k).toLoadRect X8)
            (View.readAt (Elt F) arg9.view (Rect.unit (s := S1024x64) ![0, 0] S1024x64.size inb_S1024x64_S1024x64_0_0).toLoadRect f)⟩] := by
  unfold tripL_k0_t1 trip_k0_t1
  rfl

/-- The accumulator after the first n trips reads as the n-fold recurrence over what it held at loop entry. -/
theorem read_pb (𝒱 : Variants) (c : Dev nD) (bd : Option 𝒱.V) (i : grid0.Coords) (arg3 : Memref sig .tc .vmem S1x1x1024x64 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x1024x64 .f32) (harg6 : arg6.IsWhole) (arg7 : Memref sig .tc .vmem S4096x64 .bf16) (harg7 : arg7.IsWhole) (arg8 : Memref sig .tc .vmem S4096x64 .bf16) (harg8 : arg8.IsWhole) (arg9 : Memref sig .tc .vmem S1024x64 .f32) (harg9 : arg9.IsWhole)
    (v3 : Vec F S1x1x1024x64 .f32) (X7 : BufTy.Contents (Elt F) arg7.view.ty) (X8 : BufTy.Contents (Elt F) arg8.view.ty)
    (G : BufTy.Contents (Elt F) arg9.view.ty) (n : ℕ) (hn : n ≤ k0_t1_loop.trips) :
    arg9.view.read (Elt F) (arg9.view.writes (Elt F) G (pb_k0_t1 (F := F) 𝒱 c bd i arg3 harg3 arg4 harg4 arg5 harg5 arg6 harg6 arg7 harg7 arg8 harg8 arg9 harg9 v3 X7 X8 G n))
      = accFrom v3 (arg7.view.read (Elt F) X7) (arg8.view.read (Elt F) X8) (arg9.view.read (Elt F) G) n := by
  induction n with
  | zero => rfl
  | succ n ih =>
    have hlt : n < k0_t1_loop.trips := hn
    have hs := pb_k0_t1_succ (F := F) 𝒱 c bd i arg3 harg3 arg4 harg4 arg5 harg5 arg6 harg6 arg7 harg7 arg8 harg8 arg9 harg9 v3 X7 X8 G ⟨n, hlt⟩
    rw [show n + 1 = (⟨n, hlt⟩ : Fin k0_t1_loop.trips).val + 1 from rfl, hs, trip_piece, List.singleton_append,
      read_store_whole _ _ zero2]
    show _ = (if h : n < k0_t1_loop.trips then accStep v3 _ _ ⟨n, h⟩ (accFrom v3 _ _ _ n) else accFrom v3 _ _ _ n)
    rw [dif_pos hlt]
    unfold accStep
    refine congrArg (k0_pay4 v3 (View.ld (arg7.view.read (Elt F) X7) (tripRect ⟨n, hlt⟩))
      (View.ld (arg8.view.read (Elt F) X8) (tripRect ⟨n, hlt⟩))) ?_
    exact (View.ld_unit_zero zero2 inb_S1024x64_S1024x64_0_0 _).trans (ih (Nat.le_of_lt hlt))

/-! ## What each case of the body leaves -/

/-- A point that begins a head leaves the head's key block, cast, in the first scratch buffer, -/
theorem sout_A_0 (c : Dev nD) (i : grid0.Coords) (arg3 : Memref sig .tc .vmem S1x1x1024x64 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x1024x64 .f32) (harg6 : arg6.IsWhole) (arg7 : Memref sig .tc .vmem S4096x64 .bf16) (harg7 : arg7.IsWhole) (arg8 : Memref sig .tc .vmem S4096x64 .bf16) (harg8 : arg8.IsWhole) (arg9 : Memref sig .tc .vmem S1024x64 .f32) (harg9 : arg9.IsWhole) (hc0 : cond0_0 i)
    (x0 : Vec F S1x1x1024x64 .f32) (x1 : Vec F S1x1x4096x64 .f32) (x2 : Vec F S1x1x4096x64 .f32) :
    sout0_A_0 c i arg3 harg3 arg4 harg4 arg5 harg5 arg6 harg6 arg7 harg7 arg8 harg8 arg9 harg9 hc0 x0 x1 x2 = k0_pay1 x1 := by
  unfold sout0_A_0
  rw [View.read_writes_eq_canon _ _ _ (scover0_A_0 c i arg3 harg3 arg4 harg4 arg5 harg5 arg6 harg6 arg7 harg7 arg8 harg8 arg9 harg9 hc0 x0 x1 x2)]
  unfold kernelRun0_A
  dsimp only
  sl_unfold_words
  rw [View.canon_unit_zero zero2]
  simp only [View.readAt_eq_ld, harg4.read_unread, View.ld_unit_zero (S := S1x1x4096x64) zero4]

/-- the head's value block, cast, in the second, -/
theorem sout_A_1 (c : Dev nD) (i : grid0.Coords) (arg3 : Memref sig .tc .vmem S1x1x1024x64 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x1024x64 .f32) (harg6 : arg6.IsWhole) (arg7 : Memref sig .tc .vmem S4096x64 .bf16) (harg7 : arg7.IsWhole) (arg8 : Memref sig .tc .vmem S4096x64 .bf16) (harg8 : arg8.IsWhole) (arg9 : Memref sig .tc .vmem S1024x64 .f32) (harg9 : arg9.IsWhole) (hc0 : cond0_0 i)
    (x0 : Vec F S1x1x1024x64 .f32) (x1 : Vec F S1x1x4096x64 .f32) (x2 : Vec F S1x1x4096x64 .f32) :
    sout0_A_1 c i arg3 harg3 arg4 harg4 arg5 harg5 arg6 harg6 arg7 harg7 arg8 harg8 arg9 harg9 hc0 x0 x1 x2 = k0_pay2 x2 := by
  unfold sout0_A_1
  rw [View.read_writes_eq_canon _ _ _ (scover0_A_1 c i arg3 harg3 arg4 harg4 arg5 harg5 arg6 harg6 arg7 harg7 arg8 harg8 arg9 harg9 hc0 x0 x1 x2)]
  unfold kernelRun0_A
  dsimp only
  sl_unfold_words
  rw [View.canon_unit_zero zero2]
  simp only [View.readAt_eq_ld, harg5.read_unread, View.ld_unit_zero (S := S1x1x4096x64) zero4]

/-- and in its output tile the eight trips' accumulation of its query tile against those two blocks. -/
theorem out_A (c : Dev nD) (i : grid0.Coords) (arg3 : Memref sig .tc .vmem S1x1x1024x64 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x1024x64 .f32) (harg6 : arg6.IsWhole) (arg7 : Memref sig .tc .vmem S4096x64 .bf16) (harg7 : arg7.IsWhole) (arg8 : Memref sig .tc .vmem S4096x64 .bf16) (harg8 : arg8.IsWhole) (arg9 : Memref sig .tc .vmem S1024x64 .f32) (harg9 : arg9.IsWhole) (hc0 : cond0_0 i)
    (x0 : Vec F S1x1x1024x64 .f32) (x1 : Vec F S1x1x4096x64 .f32) (x2 : Vec F S1x1x4096x64 .f32) :
    out0_A_3 c i arg3 harg3 arg4 harg4 arg5 harg5 arg6 harg6 arg7 harg7 arg8 harg8 arg9 harg9 hc0 x0 x1 x2 = pointOut x0 x1 x2 := by
  unfold out0_A_3
  rw [View.read_writes_eq_canon _ _ _ (cover0_A_3 c i arg3 harg3 arg4 harg4 arg5 harg5 arg6 harg6 arg7 harg7 arg8 harg8 arg9 harg9 hc0 x0 x1 x2)]
  unfold kernelRun0_A
  dsimp only
  sl_unfold_words
  rw [View.canon_unit_zero zero4]
  unfold pointOut
  refine congrArg k0_pay5 ?_
  rw [View.writes_append]
  refine (View.ld_unit_zero zero2 inb_S1024x64_S1024x64_0_0 _).trans ?_
  refine (read_pb Variants.none c none i arg3 harg3 arg4 harg4 arg5 harg5 arg6 harg6 arg7 harg7 arg8 harg8 arg9 harg9 _ _ _ _ _ le_rfl).trans ?_
  rw [read_store_whole _ _ zero2, read_store_whole _ _ zero2, read_store_whole _ _ zero2]
  simp only [View.readAt_eq_ld, harg3.read_unread, harg4.read_unread, harg5.read_unread,
    View.ld_unit_zero (S := S1x1x4096x64) zero4, View.ld_unit_zero (S := S1x1x1024x64) zero4]

/-- A point inside a head leaves in its output tile the same accumulation, of its query tile against what the
    two scratch buffers held when it began. -/
theorem out_B (c : Dev nD) (i : grid0.Coords) (arg3 : Memref sig .tc .vmem S1x1x1024x64 .f32) (harg3 : arg3.IsWhole) (arg4 : Memref sig .tc .vmem S1x1x4096x64 .f32) (harg4 : arg4.IsWhole) (arg5 : Memref sig .tc .vmem S1x1x4096x64 .f32) (harg5 : arg5.IsWhole) (arg6 : Memref sig .tc .vmem S1x1x1024x64 .f32) (harg6 : arg6.IsWhole) (arg7 : Memref sig .tc .vmem S4096x64 .bf16) (harg7 : arg7.IsWhole) (arg8 : Memref sig .tc .vmem S4096x64 .bf16) (harg8 : arg8.IsWhole) (arg9 : Memref sig .tc .vmem S1024x64 .f32) (harg9 : arg9.IsWhole) (hc0 : ¬cond0_0 i)
    (x0 : Vec F S1x1x1024x64 .f32) (x1 : Vec F S1x1x4096x64 .f32) (x2 : Vec F S1x1x4096x64 .f32)
    (xs0 xs1 : Vec F S4096x64 .bf16) :
    out0_B_3 c i arg3 harg3 arg4 harg4 arg5 harg5 arg6 harg6 arg7 harg7 arg8 harg8 arg9 harg9 hc0 x0 x1 x2 xs0 xs1
      = k0_pay5 (accFrom x0 xs0 xs1 (k0_pay3 (F := F)) k0_t1_loop.trips) := by
  unfold out0_B_3
  rw [View.read_writes_eq_canon _ _ _ (cover0_B_3 c i arg3 harg3 arg4 harg4 arg5 harg5 arg6 harg6 arg7 harg7 arg8 harg8 arg9 harg9 hc0 x0 x1 x2 xs0 xs1)]
  unfold kernelRun0_B
  dsimp only
  sl_unfold_words
  rw [View.canon_unit_zero zero4]
  refine congrArg k0_pay5 ?_
  rw [View.writes_append]
  refine (View.ld_unit_zero zero2 inb_S1024x64_S1024x64_0_0 _).trans ?_
  refine (read_pb Variants.none c none i arg3 harg3 arg4 harg4 arg5 harg5 arg6 harg6 arg7 harg7 arg8 harg8 arg9 harg9 _ _ _ _ _ le_rfl).trans ?_
  rw [read_store_whole _ _ zero2]
  simp only [View.readAt_eq_ld, harg3.read_unread, harg7.read_unread, harg8.read_unread,
    View.ld_unit_zero (S := S1x1x1024x64) zero4]

end Cert.KernelIdeal.Acc

end
-- ==== Proof.KernelPoints.lean ====
/-
  The grid points one after another.

  The 64 grid points are numbered t = 32·b + 4·h + s: batch entry b, head h, query tile s of four. A point's query
  window holds rows 1024·s … 1024·s + 1023 of the queries of head (b, h); its key and value windows hold all 4096
  rows of that head's keys and values. Only the first of a head's four points (s = 0) stores the two scratch
  buffers; the other three find them as the point before left them. Since the three points share the head with the
  point before, by induction on t the scratch buffers hold, after every point, the cast key and value blocks of
  that point's own head, and so every point leaves in its output tile the closed form of its own query tile and
  of its own head's key and value blocks.
-/
import proofs.«143925_j72378788872873_2_alg».proof.Proof.KernelTrips
import Idealize.ShloMosaic.Lib.ValueIdx

set_option maxRecDepth 16384

noncomputable section

namespace Cert.KernelIdeal.Acc

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The four windows' block indices at point t = 32·b + 4·h + s, decided over the 64 points: the query and output
    windows sit at (b, h, s, 0), the key and value windows at (b, h, 0, 0). -/
theorem idx_facts : ∀ t : Fin cfg0.N,
    (win0_0.index t (0 : Fin 4) = t.val / 32 ∧ win0_0.index t (1 : Fin 4) = t.val / 4 % 8
      ∧ win0_0.index t (2 : Fin 4) = t.val % 4 ∧ win0_0.index t (3 : Fin 4) = 0)
    ∧ (win0_1.index t (0 : Fin 4) = t.val / 32 ∧ win0_1.index t (1 : Fin 4) = t.val / 4 % 8
      ∧ win0_1.index t (2 : Fin 4) = 0 ∧ win0_1.index t (3 : Fin 4) = 0)
    ∧ (win0_2.index t (0 : Fin 4) = t.val / 32 ∧ win0_2.index t (1 : Fin 4) = t.val / 4 % 8
      ∧ win0_2.index t (2 : Fin 4) = 0 ∧ win0_2.index t (3 : Fin 4) = 0)
    ∧ (win0_3.index t (0 : Fin 4) = t.val / 32 ∧ win0_3.index t (1 : Fin 4) = t.val / 4 % 8
      ∧ win0_3.index t (2 : Fin 4) = t.val % 4 ∧ win0_3.index t (3 : Fin 4) = 0) :=
  (by decide +kernel : ∀ t : Fin grid0.N, _)

theorem lt64 (t : Fin cfg0.N) : t.val < 64 := lt_of_lt_of_eq t.isLt (show cfg0.N = 64 from N_0)

/-- All 4096 rows of head (n / 32, n / 4 mod 8) of an array, as a [1, 1, 4096, 64] block. -/
def headRows (A : S2x8x4096x64.Idx → Elt F .f32) (n : ℕ) (hn : n < 64) : Vec F S1x1x4096x64 .f32 :=
  fun y => A (ix4 (⟨n / 32, by omega⟩ : Fin 2) (⟨n / 4 % 8, by omega⟩ : Fin 8) (y 2) (y 3))

/-- Rows 1024·(n mod 4) … of head (n / 32, n / 4 mod 8) of an array, as a [1, 1, 1024, 64] block. -/
def tileRows (A : S2x8x4096x64.Idx → Elt F .f32) (n : ℕ) (hn : n < 64) : Vec F S1x1x1024x64 .f32 :=
  fun y => A (ix4 (⟨n / 32, by omega⟩ : Fin 2) (⟨n / 4 % 8, by omega⟩ : Fin 8)
    (⟨n % 4 * 1024 + (y 2).val, by have := (y 2).isLt; have h : (y 2).val < 1024 := this; omega⟩ : Fin 4096) (y 3))

/-- Two points of one head see the same head rows. -/
theorem headRows_congr (A : S2x8x4096x64.Idx → Elt F .f32) (n n' : ℕ) (hn : n < 64) (hn' : n' < 64)
    (e0 : n / 32 = n' / 32) (e1 : n / 4 % 8 = n' / 4 % 8) : headRows A n hn = headRows A n' hn' := by
  unfold headRows
  funext y
  have h0 : (⟨n / 32, by omega⟩ : Fin 2) = ⟨n' / 32, by omega⟩ := Fin.ext e0
  have h1 : (⟨n / 4 % 8, by omega⟩ : Fin 8) = ⟨n' / 4 % 8, by omega⟩ := Fin.ext e1
  rw [h0, h1]

/-- The query window's block at point t is the point's tile of the query array; -/
theorem iblk0_eq (c : Dev nD) (t : Fin cfg0.N) :
    (iblk m c 0 t : Vec F S1x1x1024x64 .f32) = tileRows (V m c main_arg0) t.val (lt64 t) := by
  obtain ⟨⟨e0, e1, e2, e3⟩, -, -, -⟩ := idx_facts t
  funext y
  show V m c main_arg0 (((cfg0.win 0).blk t).view.emb y) = V m c main_arg0 _
  refine congrArg (V m c main_arg0) ?_
  funext a; apply Fin.ext
  match a with
  | ⟨0, _⟩ => show win0_0.index t (0 : Fin 4) * 1 + 1 * (y 0).val = t.val / 32; have hj : (y 0).val < 1 := (y 0).isLt; omega
  | ⟨1, _⟩ => show win0_0.index t (1 : Fin 4) * 1 + 1 * (y 1).val = t.val / 4 % 8; have hj : (y 1).val < 1 := (y 1).isLt; omega
  | ⟨2, _⟩ => show win0_0.index t (2 : Fin 4) * 1024 + 1 * (y 2).val = t.val % 4 * 1024 + (y 2).val; omega
  | ⟨3, _⟩ => show win0_0.index t (3 : Fin 4) * 64 + 1 * (y 3).val = (y 3).val; omega

/-- the key window's block is the head's rows of the key array; -/
theorem iblk1_eq (c : Dev nD) (t : Fin cfg0.N) :
    (iblk m c 1 t : Vec F S1x1x4096x64 .f32) = headRows (V m c main_arg1) t.val (lt64 t) := by
  obtain ⟨-, ⟨e0, e1, e2, e3⟩, -, -⟩ := idx_facts t
  funext y
  show V m c main_arg1 (((cfg0.win 1).blk t).view.emb y) = V m c main_arg1 _
  refine congrArg (V m c main_arg1) ?_
  funext a; apply Fin.ext
  match a with
  | ⟨0, _⟩ => show win0_1.index t (0 : Fin 4) * 1 + 1 * (y 0).val = t.val / 32; have hj : (y 0).val < 1 := (y 0).isLt; omega
  | ⟨1, _⟩ => show win0_1.index t (1 : Fin 4) * 1 + 1 * (y 1).val = t.val / 4 % 8; have hj : (y 1).val < 1 := (y 1).isLt; omega
  | ⟨2, _⟩ => show win0_1.index t (2 : Fin 4) * 4096 + 1 * (y 2).val = (y 2).val; omega
  | ⟨3, _⟩ => show win0_1.index t (3 : Fin 4) * 64 + 1 * (y 3).val = (y 3).val; omega

/-- the value window's block is the head's rows of the value array. -/
theorem iblk2_eq (c : Dev nD) (t : Fin cfg0.N) :
    (iblk m c 2 t : Vec F S1x1x4096x64 .f32) = headRows (V m c main_arg2) t.val (lt64 t) := by
  obtain ⟨-, -, ⟨e0, e1, e2, e3⟩, -⟩ := idx_facts t
  funext y
  show V m c main_arg2 (((cfg0.win 2).blk t).view.emb y) = V m c main_arg2 _
  refine congrArg (V m c main_arg2) ?_
  funext a; apply Fin.ext
  match a with
  | ⟨0, _⟩ => show win0_2.index t (0 : Fin 4) * 1 + 1 * (y 0).val = t.val / 32; have hj : (y 0).val < 1 := (y 0).isLt; omega
  | ⟨1, _⟩ => show win0_2.index t (1 : Fin 4) * 1 + 1 * (y 1).val = t.val / 4 % 8; have hj : (y 1).val < 1 := (y 1).isLt; omega
  | ⟨2, _⟩ => show win0_2.index t (2 : Fin 4) * 4096 + 1 * (y 2).val = (y 2).val; omega
  | ⟨3, _⟩ => show win0_2.index t (3 : Fin 4) * 64 + 1 * (y 3).val = (y 3).val; omega

/-- THE CARRIED SCRATCH: after every point the two scratch buffers hold the cast key rows and the cast value rows
    of that point's head. -/
theorem scratch_eq (c : Dev nD) : ∀ (n : ℕ) (hn : n < cfg0.N),
    (outsAt0 m c n hn).2.1 = k0_pay1 (headRows (V m c main_arg1) n (lt64 ⟨n, hn⟩))
    ∧ (outsAt0 m c n hn).2.2 = k0_pay2 (headRows (V m c main_arg2) n (lt64 ⟨n, hn⟩)) := by
  intro n
  induction n with
  | zero =>
    intro hn
    rw [outsAt0_A m c ⟨0, hn⟩ rfl]
    dsimp only
    exact ⟨(sout_A_0 c _ _ _ _ _ _ _ _ _ _ _ _ _ _ _ _ _ _ _).trans (congrArg k0_pay1 (iblk1_eq m c ⟨0, hn⟩)),
      (sout_A_1 c _ _ _ _ _ _ _ _ _ _ _ _ _ _ _ _ _ _ _).trans (congrArg k0_pay2 (iblk2_eq m c ⟨0, hn⟩))⟩
  | succ k ih =>
    intro hn
    have h64 : k + 1 < 64 := lt64 ⟨k + 1, hn⟩
    by_cases h0 : (k + 1) % 4 = 0
    · rw [outsAt0_A m c ⟨k + 1, hn⟩ h0]
      dsimp only
      exact ⟨(sout_A_0 c _ _ _ _ _ _ _ _ _ _ _ _ _ _ _ _ _ _ _).trans (congrArg k0_pay1 (iblk1_eq m c ⟨k + 1, hn⟩)),
        (sout_A_1 c _ _ _ _ _ _ _ _ _ _ _ _ _ _ _ _ _ _ _).trans (congrArg k0_pay2 (iblk2_eq m c ⟨k + 1, hn⟩))⟩
    · obtain ⟨i1, i2⟩ := ih (Nat.lt_of_succ_lt hn)
      rw [outsAt0_B m c ⟨k + 1, hn⟩ h0]
      dsimp only
      unfold sout0_B_0 sout0_B_1
      exact ⟨i1.trans (congrArg k0_pay1 (headRows_congr _ k (k + 1) _ _ (by omega) (by omega))),
        i2.trans (congrArg k0_pay2 (headRows_congr _ k (k + 1) _ _ (by omega) (by omega)))⟩

/-- THE OUTPUT TILE: every point leaves the closed form of its own query tile and of its own head's key and
    value rows. -/
theorem tile_eq (c : Dev nD) (t : Fin cfg0.N) :
    (outsAt0 m c t.val t.isLt).1
      = pointOut (tileRows (V m c main_arg0) t.val (lt64 t)) (headRows (V m c main_arg1) t.val (lt64 t))
          (headRows (V m c main_arg2) t.val (lt64 t)) := by
  have h64 := lt64 t
  by_cases h0 : t.val % 4 = 0
  · rw [outsAt0_A m c t h0]
    dsimp only
    rw [out_A, iblk0_eq, iblk1_eq, iblk2_eq]
  · obtain ⟨i1, i2⟩ := scratch_eq m c (t.val - 1) (Nat.lt_of_le_of_lt (Nat.sub_le _ _) t.isLt)
    rw [outsAt0_B m c t h0]
    dsimp only
    rw [out_B, i1, i2, iblk0_eq]
    unfold pointOut
    rw [headRows_congr (V m c main_arg1) (t.val - 1) t.val _ h64 (by omega) (by omega),
      headRows_congr (V m c main_arg2) (t.val - 1) t.val _ h64 (by omega) (by omega)]

end Cert.KernelIdeal.Acc

end
-- ==== Proof.KernelStep.lean ====
/-
  One trip of the kernel body's loop, read at an entry of the accumulator.

  Everything is read on the extended reals, where the float operations are exact and the narrowing to sixteen
  bits is the identity. The body holds the head's 4096 key rows and 4096 value rows in two scratch arrays and a
  [1024, 64] accumulator; trip k takes rows 512·k … 512·k + 511 of each. At entry (r, d) the trip adds to the
  accumulator the sum over its 512 rows j of

      max((∑ₑ q[r, e] · k[512·k + j, e]) · w, 0) · v[512·k + j, d],      w the word 1/64:

  each of the two matrix products into a zero accumulator is the sum over its one contracted axis, the shape
  casts only drop or add unit axes (same row-major position), and the load rectangle of trip k starts at row
  512·k. On the extended reals x · (1/64) = x / 64, at ⊥ and ⊤ too, so no finiteness hypothesis is needed.
-/
import proofs.«143925_j72378788872873_2_alg».proof.Proof.KernelAcc
import proofs.«143925_j72378788872873_2_alg».proof.Proof.Gen.KernelIdeal
import Idealize.ShloMosaic.PureOps.Ideal.Laws
import Idealize.ShloMosaic.Lib.ValueIdx
import Idealize.ShloMosaic.Lib.ValueLayout

noncomputable section

namespace Cert.KernelIdeal.Acc

open Idealize.ShloMosaic Idealize.SL.Sem Cert.KernelIdeal Cert.KernelIdeal.Gen Idealize.ShloMosaic.ValueIdx
open scoped BigOperators

/-! ### Shape casts that drop or add two leading unit axes -/

section Casts
variable {α : Type}

/-- A `[1, 1, a, b]` array cast to `[a, b]` reads, at `(i, j)`, the operand at `(0, 0, i, j)`: the two indices have
    the same row-major position `i · b + j`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- An `[a, b]` array cast to `[1, 1, a, b]` reads, at `(0, 0, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    rw [Nat.zero_mul, Nat.zero_add])

end Casts

/-! ### The four payloads that only move or fill -/

/-- The key scratch buffer holds the key block's rows: entry `(n, e)` is the block's `(0, 0, n, e)`. -/
theorem k0_pay1_apply (kblk : Vec Ideal S1x1x4096x64 .f32) (n : Fin 4096) (e : Fin 64) :
    k0_pay1 (F := Ideal) kblk (ix2 n e) = kblk (ix4 0 0 n e) := by
  unfold k0_pay1
  rw [shapeCast_self]
  exact shapeCast_11ab_ab_apply kblk _ n e

/-- The value scratch buffer holds the value block's rows. -/
theorem k0_pay2_apply (vblk : Vec Ideal S1x1x4096x64 .f32) (n : Fin 4096) (e : Fin 64) :
    k0_pay2 (F := Ideal) vblk (ix2 n e) = vblk (ix4 0 0 n e) := by
  unfold k0_pay2
  rw [shapeCast_self]
  exact shapeCast_11ab_ab_apply vblk _ n e

/-- The accumulator starts at zero everywhere. -/
theorem k0_pay3_apply (j : S1024x64.Idx) : k0_pay3 (F := Ideal) j = 0 := by
  unfold k0_pay3
  rw [shapeCast_self]
  exact Ideal.ofBits_zero_f32

/-- The output tile's entry `(0, 0, r, d)` is the accumulator's `(r, d)`. -/
theorem k0_pay5_apply (acc : Vec Ideal S1024x64 .f32) (r : Fin 1024) (d : Fin 64) :
    k0_pay5 (F := Ideal) acc (ix4 0 0 r d) = acc (ix2 r d) := by
  unfold k0_pay5
  exact shapeCast_ab_11ab_apply acc _ r d

/-! ### The two contractions read at an entry -/

/-- The scores' contraction: query tile `[1024, 64]` against key rows `[512, 64]`, over the feature axis of both. -/
abbrev D₁ : DotDims S1024x64 S512x64 S1024x512 := dot_S1024x64_S512x64_S1024x512_1_1_0_0_n_n
/-- The output's contraction: score tile `[1024, 512]` against value rows `[512, 64]`, over the key-row axis. -/
abbrev D₂ : DotDims S1024x512 S512x64 S1024x64 := dot_S1024x512_S512x64_S1024x64_1_0_0_1_n_n

theorem d1_lhs_0 (i : S1024x512.Idx) (q : D₁.contr.Idx) : (D₁.lhsIdx i q 0).val = (i 0).val := by
  unfold DotDims.lhsIdx
  rw [dif_neg (show ¬(0 : Fin S1024x64.rank) ∈ D₁.lhsBatch by decide),
    dif_pos (show (0 : Fin S1024x64.rank) ∈ D₁.lhsNonContracting by decide)]
  rfl
theorem d1_lhs_1 (i : S1024x512.Idx) (q : D₁.contr.Idx) : (D₁.lhsIdx i q 1).val = (q ⟨0, by decide⟩).val :=
  D₁.lhsIdx_val_of_single rfl i q
theorem d1_rhs_0 (i : S1024x512.Idx) (q : D₁.contr.Idx) : (D₁.rhsIdx i q 0).val = (i 1).val := by
  unfold DotDims.rhsIdx
  rw [dif_neg (show ¬(0 : Fin S512x64.rank) ∈ D₁.rhsBatch by decide),
    dif_pos (show (0 : Fin S512x64.rank) ∈ D₁.rhsNonContracting by decide)]
  rfl
theorem d1_rhs_1 (i : S1024x512.Idx) (q : D₁.contr.Idx) : (D₁.rhsIdx i q 1).val = (q ⟨0, by decide⟩).val :=
  D₁.rhsIdx_val_of_single rfl i q
theorem d2_lhs_0 (i : S1024x64.Idx) (q : D₂.contr.Idx) : (D₂.lhsIdx i q 0).val = (i 0).val := by
  unfold DotDims.lhsIdx
  rw [dif_neg (show ¬(0 : Fin S1024x512.rank) ∈ D₂.lhsBatch by decide),
    dif_pos (show (0 : Fin S1024x512.rank) ∈ D₂.lhsNonContracting by decide)]
  rfl
theorem d2_lhs_1 (i : S1024x64.Idx) (q : D₂.contr.Idx) : (D₂.lhsIdx i q 1).val = (q ⟨0, by decide⟩).val :=
  D₂.lhsIdx_val_of_single rfl i q
theorem d2_rhs_0 (i : S1024x64.Idx) (q : D₂.contr.Idx) : (D₂.rhsIdx i q 0).val = (q ⟨0, by decide⟩).val :=
  D₂.rhsIdx_val_of_single rfl i q
theorem d2_rhs_1 (i : S1024x64.Idx) (q : D₂.contr.Idx) : (D₂.rhsIdx i q 1).val = (i 1).val := by
  unfold DotDims.rhsIdx
  rw [dif_neg (show ¬(1 : Fin S512x64.rank) ∈ D₂.rhsBatch by decide),
    dif_pos (show (1 : Fin S512x64.rank) ∈ D₂.rhsNonContracting by decide)]
  rfl

/-- Entry `(r, j)` of the first product into a zero accumulator: the dot product of query row `r` and key row `j`. -/
theorem matmul₁_apply (lhs : FVec Ideal S1024x64 .bf16) (rhs : FVec Ideal S512x64 .bf16) (r : Fin 1024) (j : Fin 512) :
    matmul D₁ none lhs rhs (constant S1024x512 .f32 0x00000000#32) (ix2 r j) = ∑ e : Fin 64, lhs (ix2 r e) * rhs (ix2 j e) := by
  simp only [matmul]
  rw [Ideal.matmul_constant_zero_apply, ← Equiv.sum_comp (contrEquiv1 D₁ 64 rfl rfl).symm]
  refine Finset.sum_congr rfl fun e _ => ?_
  have he := contrEquiv1_symm_val D₁ 64 rfl rfl e
  have el : D₁.lhsIdx (ix2 r j) ((contrEquiv1 D₁ 64 rfl rfl).symm e) = ix2 r e := funext fun a => Fin.ext (by
    match a with
    | ⟨0, _⟩ => exact d1_lhs_0 _ _
    | ⟨1, _⟩ => exact (d1_lhs_1 _ _).trans he)
  have er : D₁.rhsIdx (ix2 r j) ((contrEquiv1 D₁ 64 rfl rfl).symm e) = ix2 j e := funext fun a => Fin.ext (by
    match a with
    | ⟨0, _⟩ => exact d1_rhs_0 _ _
    | ⟨1, _⟩ => exact (d1_rhs_1 _ _).trans he)
  rw [el, er]

/-- Entry `(r, d)` of the second product into a zero accumulator: the sum over the 512 rows `j` of the left operand's
    `(r, j)` times the right operand's `(j, d)`. -/
theorem matmul₂_apply (lhs : FVec Ideal S1024x512 .bf16) (rhs : FVec Ideal S512x64 .bf16) (r : Fin 1024) (d : Fin 64) :
    matmul D₂ none lhs rhs (constant S1024x64 .f32 0x00000000#32) (ix2 r d) = ∑ j : Fin 512, lhs (ix2 r j) * rhs (ix2 j d) := by
  simp only [matmul]
  rw [Ideal.matmul_constant_zero_apply, ← Equiv.sum_comp (contrEquiv1 D₂ 512 rfl rfl).symm]
  refine Finset.sum_congr rfl fun j _ => ?_
  have hj := contrEquiv1_symm_val D₂ 512 rfl rfl j
  have el : D₂.lhsIdx (ix2 r d) ((contrEquiv1 D₂ 512 rfl rfl).symm j) = ix2 r j := funext fun a => Fin.ext (by
    match a with
    | ⟨0, _⟩ => exact d2_lhs_0 _ _
    | ⟨1, _⟩ => exact (d2_lhs_1 _ _).trans hj)
  have er : D₂.rhsIdx (ix2 r d) ((contrEquiv1 D₂ 512 rfl rfl).symm j) = ix2 j d := funext fun a => Fin.ext (by
    match a with
    | ⟨0, _⟩ => exact (d2_rhs_0 _ _).trans hj
    | ⟨1, _⟩ => exact d2_rhs_1 _ _)
  rw [el, er]

/-! ### The scale -/

/-- The word the kernel multiplies the dot products by is 1/64, -/
theorem ofBits_inv64 : Ideal.ofBits .f32 0x3C800000#32 = ((1 / 64 : ℝ) : EReal) := by
  simp [Ideal.ofBits, Ideal.ieee, -EReal.coe_mul]; norm_num
/-- the word the specification divides them by is 64, -/
theorem ofBits_64 : Ideal.ofBits .f32 0x42800000#32 = ((64 : ℝ) : EReal) := by
  simp [Ideal.ofBits, Ideal.ieee, -EReal.coe_mul]; norm_num

/-- and on the extended reals the product with 1/64 is the quotient by 64, at `⊥` and `⊤` too. -/
theorem mul_inv64_eq_div (x : EReal) :
    x * Ideal.ofBits .f32 0x3C800000#32 = Ideal.div x (Ideal.ofBits .f32 0x42800000#32) := by
  rw [ofBits_inv64, ofBits_64, Ideal.div_coe (by norm_num : (64 : ℝ) ≠ 0)]

/-! ### One trip at an entry -/

/-- One trip's arithmetic at entry `(r, d)`: the accumulator there plus the sum over the trip's 512 rows `j` of the
    clipped scaled dot product of query row `r` with key row `j`, times value row `j` at feature `d`. -/
theorem k0_pay4_apply (q : Vec Ideal S1x1x1024x64 .f32) (kc vc : Vec Ideal S512x64 .bf16) (acc : Vec Ideal S1024x64 .f32)
    (r : Fin 1024) (d : Fin 64) :
    k0_pay4 (F := Ideal) q kc vc acc (ix2 r d)
      = acc (ix2 r d) + ∑ j : Fin 512,
          max ((∑ e : Fin 64, q (ix4 0 0 r e) * kc (ix2 j e)) * Ideal.ofBits .f32 0x3C800000#32)
              (Ideal.ofBits .f32 0x00000000#32) * vc (ix2 j d) := by
  unfold k0_pay4
  rw [shapeCast_self]
  refine (addf_apply _ _ _).trans ?_
  refine congrArg (acc (ix2 r d) + ·) ?_
  refine (matmul₂_apply _ _ r d).trans ?_
  refine Finset.sum_congr rfl fun j _ => ?_
  refine congrArg (· * vc (ix2 j d)) ?_
  show max (matmul D₁ none (truncf .bf16 (shapeCast S1024x64 q shapeCasts_S1x1x1024x64_S1024x64) bitsLt_bf16_f32) kc
      (constant S1024x512 .f32 0x00000000#32) (ix2 r j) * Ideal.ofBits .f32 0x3C800000#32) (Ideal.ofBits .f32 0x00000000#32) = _
  rw [matmul₁_apply]
  refine congrArg (fun x => max (x * Ideal.ofBits .f32 0x3C800000#32) (Ideal.ofBits .f32 0x00000000#32))
    (Finset.sum_congr rfl fun e _ => ?_)
  exact congrArg (· * kc (ix2 j e)) (shapeCast_11ab_ab_apply q _ r e)

/-- Row `j` of trip `k` is row `512·k + j` of the 4096. -/
def tripRow (k : Fin k0_t1_loop.trips) (j : Fin 512) : Fin 4096 :=
  ⟨512 * k.val + j.val, by have := k.isLt; have := k0_t1_abs.2.1; omega⟩

theorem tripRect_idx_0 (k : Fin k0_t1_loop.trips) (x : S512x64.Idx) : ((tripRect k).idx x 0 : ℕ) = 512 * k.val + x 0 := by
  rw [LoadRect.idx_apply]; simp [Rect.unit, k0_off1_eq k]
theorem tripRect_idx_1 (k : Fin k0_t1_loop.trips) (x : S512x64.Idx) : ((tripRect k).idx x 1 : ℕ) = x 1 := by
  rw [LoadRect.idx_apply]; simp [Rect.unit, k0_off1_eq k]

/-- What trip `k` loads of a scratch buffer, at `(j, e)`, is the buffer's `(512·k + j, e)`. -/
theorem ld_tripRect (X : Vec Ideal S4096x64 .bf16) (k : Fin k0_t1_loop.trips) (j : Fin 512) (e : Fin 64) :
    View.ld X (tripRect k) (ix2 j e) = X (ix2 (tripRow k j) e) :=
  congrArg X (funext fun a => Fin.ext (by
    match a with
    | ⟨0, _⟩ => exact tripRect_idx_0 k _
    | ⟨1, _⟩ => exact tripRect_idx_1 k _))

/-- One trip over the scratch buffers, at entry `(r, d)`. -/
theorem accStep_apply (q : Vec Ideal S1x1x1024x64 .f32) (ks vs : Vec Ideal S4096x64 .bf16) (k : Fin k0_t1_loop.trips)
    (acc : Vec Ideal S1024x64 .f32) (r : Fin 1024) (d : Fin 64) :
    accStep (F := Ideal) q ks vs k acc (ix2 r d)
      = acc (ix2 r d) + ∑ j : Fin 512,
          max ((∑ e : Fin 64, q (ix4 0 0 r e) * ks (ix2 (tripRow k j) e)) * Ideal.ofBits .f32 0x3C800000#32)
              (Ideal.ofBits .f32 0x00000000#32) * vs (ix2 (tripRow k j) d) := by
  unfold accStep
  rw [k0_pay4_apply]
  refine congrArg (acc (ix2 r d) + ·) (Finset.sum_congr rfl fun j _ => ?_)
  rw [ld_tripRect vs k j d]
  refine congrArg (fun x => max (x * Ideal.ofBits .f32 0x3C800000#32) (Ideal.ofBits .f32 0x00000000#32) * vs (ix2 (tripRow k j) d))
    (Finset.sum_congr rfl fun e _ => ?_)
  rw [ld_tripRect ks k j e]

end Cert.KernelIdeal.Acc

end
-- ==== Proof.Spec.lean ====
/-
  Attention without a softmax, as one function of the three argument arrays.

  For a batch entry b and a head h, the score of query row s against key row n is the dot product of the two
  rows divided by the head dimension 64 and clipped below at zero; the output row s is the sum over all 4096 key
  rows n of that score times value row n. Everything is read on the extended reals. The divisor and the zero are
  kept as the float words both programs print, so neither is ever evaluated here.
-/
import Idealize.ShloMosaic.PureOps.Ideal
import Idealize.ShloMosaic.Lib.ValueIdx

noncomputable section

namespace Cert.Spec

open Idealize.ShloMosaic Idealize.ShloMosaic.ValueIdx
open scoped BigOperators

/-- An array of shape [2, 8, 4096, 64] of extended reals. -/
abbrev Arr : Type := (⟨4, ![2, 8, 4096, 64]⟩ : Shape).Idx → EReal

/-- The clipped, scaled score of one query row against one key row, both given as functions of the
    feature coordinate: max((∑ₑ qₑ · kₑ) / 64, 0). -/
def score (qrow krow : Fin 64 → EReal) : EReal :=
  max (Ideal.div (∑ e : Fin 64, qrow e * krow e) (Ideal.ofBits .f32 0x42800000#32)) (Ideal.ofBits .f32 0x00000000#32)

/-- out[b, h, s, d] = ∑ₙ score(q[b, h, s, ·], k[b, h, n, ·]) · v[b, h, n, d]. -/
def attn (q k v : Arr) : Arr := fun i =>
  ∑ n : Fin 4096, score (fun e => q (ix4 (i 0) (i 1) (i 2) e)) (fun e => k (ix4 (i 0) (i 1) n e)) * v (ix4 (i 0) (i 1) n (i 3))

end Cert.Spec

end
-- ==== Proof.KernelEntry.lean ====
/-
  What one grid point leaves in its output tile, read at an entry, is the specification's sum.

  Everything is read on the extended reals. At a grid point the body copies the head's 4096 key rows and 4096
  value rows into two scratch arrays, zeroes a [1024, 64] accumulator and makes eight trips; trip k takes rows
  512·k … 512·k + 511, and at entry (r, d) adds the sum over those rows of the clipped scaled dot product of
  query row r with the key row, times the value row at d (one trip at an entry: the module imported first).

  The product with the word 1/64 is the quotient by the word 64, so a trip's summand at row n is the
  specification's: the score of query row r against key row n, times v[n, d]. By induction on the number of
  trips the accumulator's entry is the sum of the summands of the rows read so far; after eight trips, from
  zero, the sum over (trip t, row j in the trip) is the sum over the 4096 rows, position 512·t + j. Only
  associativity and commutativity of + are used.
-/
import proofs.«143925_j72378788872873_2_alg».proof.Proof.KernelStep
import proofs.«143925_j72378788872873_2_alg».proof.Proof.Spec

noncomputable section

namespace Cert.KernelIdeal.Acc

open Idealize.ShloMosaic Idealize.SL.Sem Cert.KernelIdeal Cert.KernelIdeal.Gen Idealize.ShloMosaic.ValueIdx
open scoped BigOperators

/-! ### The eight trips -/

/-- The specification's summand for output entry `(r, d)` at key row `n`: the score of query row `r` against key
    row `n`, times value row `n` at feature `d`. -/
def term (q : Vec Ideal S1x1x1024x64 .f32) (kblk vblk : Vec Ideal S1x1x4096x64 .f32) (r : Fin 1024) (d : Fin 64)
    (n : Fin 4096) : EReal :=
  Cert.Spec.score (fun e => q (ix4 0 0 r e)) (fun e => kblk (ix4 0 0 n e)) * vblk (ix4 0 0 n d)

/-- One trip over the scratch copies of the key and value blocks adds the specification's summands of its 512 rows:
    the product with the word 1/64 is the quotient by the word 64. -/
theorem accStep_pay_apply (q : Vec Ideal S1x1x1024x64 .f32) (kblk vblk : Vec Ideal S1x1x4096x64 .f32)
    (k : Fin k0_t1_loop.trips) (acc : Vec Ideal S1024x64 .f32) (r : Fin 1024) (d : Fin 64) :
    accStep (F := Ideal) q (k0_pay1 kblk) (k0_pay2 vblk) k acc (ix2 r d)
      = acc (ix2 r d) + ∑ j : Fin 512, term q kblk vblk r d (tripRow k j) := by
  rw [accStep_apply]
  refine congrArg (acc (ix2 r d) + ·) (Finset.sum_congr rfl fun j _ => ?_)
  unfold term Cert.Spec.score
  rw [k0_pay2_apply, mul_inv64_eq_div]
  refine congrArg (fun x => max (Ideal.div x (Ideal.ofBits .f32 0x42800000#32)) (Ideal.ofBits .f32 0x00000000#32)
    * vblk (ix4 0 0 (tripRow k j) d)) (Finset.sum_congr rfl fun e _ => ?_)
  rw [k0_pay1_apply]

/-- The summand as a function of the row's position among the 4096 (zero past the end, where no trip reads). -/
def termAt (q : Vec Ideal S1x1x1024x64 .f32) (kblk vblk : Vec Ideal S1x1x4096x64 .f32) (r : Fin 1024) (d : Fin 64)
    (m : ℕ) : EReal :=
  if h : m < 4096 then term q kblk vblk r d ⟨m, h⟩ else 0

/-- After the first `n` trips the accumulator's entry is what it started with plus the summands of rows
    `0 … 512·n - 1`, trip by trip. -/
theorem accFrom_apply (q : Vec Ideal S1x1x1024x64 .f32) (kblk vblk : Vec Ideal S1x1x4096x64 .f32)
    (a0 : Vec Ideal S1024x64 .f32) (r : Fin 1024) (d : Fin 64) : ∀ n, n ≤ k0_t1_loop.trips →
    accFrom (F := Ideal) q (k0_pay1 kblk) (k0_pay2 vblk) a0 n (ix2 r d)
      = a0 (ix2 r d) + ∑ t ∈ Finset.range n, ∑ j : Fin 512, termAt q kblk vblk r d (512 * t + j.val)
  | 0, _ => by rw [accFrom, Finset.range_zero, Finset.sum_empty, add_zero]
  | n + 1, hn => by
    have h : n < k0_t1_loop.trips := hn
    rw [accFrom, dif_pos h, accStep_pay_apply, accFrom_apply q kblk vblk a0 r d n (le_of_lt h), Finset.sum_range_succ,
      add_assoc]
    refine congrArg (fun x => a0 (ix2 r d) + ((∑ t ∈ Finset.range n, ∑ j : Fin 512, termAt q kblk vblk r d (512 * t + j.val)) + x))
      (Finset.sum_congr rfl fun j _ => ?_)
    have hlt : 512 * n + j.val < 4096 := by have := k0_t1_abs.2.1; omega
    unfold termAt
    rw [dif_pos hlt]
    rfl

/-- A sum over `A · B` positions is the sum over `A` tiles of the sums over the `B` positions of each. -/
theorem sum_tiles {α : Type} [AddCommMonoid α] (A B : ℕ) (f : Fin (A * B) → α) :
    ∑ k : Fin (A * B), f k = ∑ a : Fin A, ∑ b : Fin B, f (finProdFinEquiv (a, b)) := by
  rw [← Equiv.sum_comp finProdFinEquiv f, Fintype.sum_prod_type]

/-- What a grid point leaves in its output tile at `(0, 0, r, d)`: the sum over all 4096 key rows of the score of
    query row `r` against the key row, times the value row at feature `d`. -/
theorem pointOut_apply (q : Vec Ideal S1x1x1024x64 .f32) (kblk vblk : Vec Ideal S1x1x4096x64 .f32) (r : Fin 1024) (d : Fin 64) :
    pointOut (F := Ideal) q kblk vblk (ix4 0 0 r d)
      = ∑ n : Fin 4096, Cert.Spec.score (fun e => q (ix4 0 0 r e)) (fun e => kblk (ix4 0 0 n e)) * vblk (ix4 0 0 n d) := by
  have ht : k0_t1_loop.trips = 8 := by decide
  unfold pointOut
  rw [k0_pay5_apply, accFrom_apply q kblk vblk _ r d _ le_rfl, k0_pay3_apply, zero_add, ht,
    ← Fin.sum_univ_eq_sum_range (fun t => ∑ j : Fin 512, termAt q kblk vblk r d (512 * t + j.val)) 8]
  show _ = ∑ n : Fin (8 * 512), term q kblk vblk r d n
  rw [sum_tiles 8 512]
  refine Finset.sum_congr rfl fun t _ => Finset.sum_congr rfl fun j _ => ?_
  have hlt : 512 * t.val + j.val < 4096 := by omega
  unfold termAt
  rw [dif_pos hlt]
  refine congrArg (term q kblk vblk r d) (Fin.ext ?_)
  rw [finProdFinEquiv_apply_val]
  show 512 * t.val + j.val = j.val + 512 * t.val
  omega

end Cert.KernelIdeal.Acc

end
-- ==== Proof.KernelArray.lean ====
/-
  From the tiles to the whole output array.

  Point t = 32·b + 4·h + s writes its output tile back to rows 1024·s … 1024·s + 1023 of head (b, h) of the output
  array. Read at an entry, that tile is the specification's sum over the 4096 key rows of the head, of the scores
  of the tile's query row against each key row times the value row; so the tile is the block of ONE function of
  the three argument arrays, the specification. The 64 blocks tile the output array (the point that covers entry
  (b, h, r, d) is 32·b + 4·h + r / 1024), hence after the run the array is the specification everywhere.
-/
import proofs.«143925_j72378788872873_2_alg».proof.Proof.Gen.KernelIdeal.Value
import proofs.«143925_j72378788872873_2_alg».proof.Proof.KernelPoints
import proofs.«143925_j72378788872873_2_alg».proof.Proof.KernelEntry
import proofs.«143925_j72378788872873_2_alg».proof.Proof.Spec

set_option maxRecDepth 16384

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- Where entry (r, d) of point t's output tile lies in the output array. -/
theorem emb3_eq (t : Fin cfg0.N) (r : Fin 1024) (d : Fin 64) :
    ((cfg0.win 3).blk t).view.emb (ix4 (0 : Fin 1) (0 : Fin 1) r d)
      = ix4 (⟨t.val / 32, by have := lt64 t; omega⟩ : Fin 2) (⟨t.val / 4 % 8, by omega⟩ : Fin 8)
          (⟨t.val % 4 * 1024 + r.val, by have := r.isLt; omega⟩ : Fin 4096) d := by
  obtain ⟨-, -, -, ⟨e0, e1, e2, e3⟩⟩ := idx_facts t
  funext a; apply Fin.ext
  match a with
  | ⟨0, _⟩ => show win0_3.index t (0 : Fin 4) * 1 + 1 * 0 = t.val / 32; omega
  | ⟨1, _⟩ => show win0_3.index t (1 : Fin 4) * 1 + 1 * 0 = t.val / 4 % 8; omega
  | ⟨2, _⟩ => show win0_3.index t (2 : Fin 4) * 1024 + 1 * r.val = t.val % 4 * 1024 + r.val; omega
  | ⟨3, _⟩ => show win0_3.index t (3 : Fin 4) * 64 + 1 * d.val = d.val; omega

/-- WHAT POINT t WRITES BACK is block t of the specification of the three argument arrays. -/
theorem flushed_eq (c : Dev nD) (t : Fin cfg0.N) :
    (dats m 0 c).flushed 3 t = ((cfg0.win 3).blk t).view.read (Elt Ideal)
      (Cert.Spec.attn (V m c main_arg0) (V m c main_arg1) (V m c main_arg2)) := by
  rw [Cert.KernelIdeal.Value.flushed3, tile_eq]
  funext y
  obtain ⟨a, b, r, d, rfl⟩ : ∃ (a : Fin 1) (b : Fin 1) (r : Fin 1024) (d : Fin 64), y = ix4 a b r d :=
    ⟨y 0, y 1, y 2, y 3, eq_ix4 y⟩
  obtain rfl : a = 0 := Subsingleton.elim _ _
  obtain rfl : b = 0 := Subsingleton.elim _ _
  show pointOut (F := Ideal) _ _ _ (ix4 0 0 r d)
    = Cert.Spec.attn _ _ _ (((cfg0.win 3).blk t).view.emb (ix4 0 0 r d))
  rw [pointOut_apply, emb3_eq]
  rfl

/-- An index of the output array is in point t's block iff each coordinate is in the block's range on its axis. -/
theorem mem_blk3 (t : Fin cfg0.N) (i : S2x8x4096x64.Idx) :
    i ∈ ((cfg0.win 3).blk t).view.set ↔ ∀ a : Fin 4, win0_3.index t a * S1x1x1024x64.size a ≤ (i a).val
      ∧ (i a).val < win0_3.index t a * S1x1x1024x64.size a + S1x1x1024x64.size a := by
  show i ∈ ((View.whole main_v0).slice (win0_3.rect t)).set ↔ _
  rw [View.set_slice_whole, Rect.mem_set_unit]
  exact Iff.rfl

/-- THE COVER: entry (b, h, r, d) is in the block of point 32·b + 4·h + r / 1024. -/
theorem cover3 (i : S2x8x4096x64.Idx) :
    ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 4096 := (i 2).isLt
  have h3 : (i 3).val < 64 := (i 3).isLt
  have hN : cfg0.N = 64 := N_0
  obtain ⟨t, tv⟩ : ∃ t : Fin cfg0.N, t.val = 32 * (i 0).val + 4 * (i 1).val + (i 2).val / 1024 :=
    ⟨⟨32 * (i 0).val + 4 * (i 1).val + (i 2).val / 1024, by omega⟩, rfl⟩
  obtain ⟨-, -, -, ⟨e0, e1, e2, e3⟩⟩ := idx_facts t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 64 ≤ (i 3).val ∧ (i 3).val < win0_3.index t (3 : Fin 4) * 64 + 64; omega

/-- THE OUTPUT ARRAY after the run is the specification of the three argument arrays. -/
theorem final (c : Dev nD) :
    (dats m 0 c).arrAt 3 cfg0.N = Cert.Spec.attn (V m c main_arg0) (V m c main_arg1) (V m c main_arg2) :=
  (dats m 0 c).arrAt_eq_of_cover 3 _ (fun t _ => flushed_eq m c t) cover3

/-- THE KERNEL'S RUN: every weakly fair execution terminates with the output array at the specification of the
    argument arrays and the argument arrays unchanged. -/
theorem run : θ_run defs (onTc (τ := τ) (main (F := Ideal))) ⟨m, fun _ => 0, ρ⟩ fun r => ∀ c : Dev nD,
      r.2.mem ((c : Thread nD τ).loc main_v0)
        = Cert.Spec.attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Acc

end
-- ==== Proof.RefValue.lean ====
/-
  The reference program's result is the specification.

  The reference contracts the query and key arrays over the feature axis (64 terms), divides every entry of
  the resulting [2, 8, 4096, 4096] score array by one broadcast scalar (the float word of 64), takes the
  maximum with a second broadcast scalar (the float word of zero), and contracts the clipped scores with the
  value array over the key axis (4096 terms). Read one entry at a time on the extended reals this is

    out[b, h, s, d] = ∑ₙ max((∑ₑ q[b, h, s, e] · k[b, h, n, e]) / c₆₄, c₀) · v[b, h, n, d],

  which is the specification's formula term by term: the only work is to see that the index each contraction
  reads its operands at is the index built from the same four coordinates. The two float words stay as words.
-/
import proofs.«143925_j72378788872873_2_alg».proof.Proof.Gen.ReferenceIdeal.Read
import proofs.«143925_j72378788872873_2_alg».proof.Proof.Spec

noncomputable section

namespace Cert.RefValue

open Idealize.ShloMosaic Idealize.ShloMosaic.ValueIdx Cert.ReferenceIdeal Cert.ReferenceIdeal.Gen Cert.ReferenceIdeal.Read
open scoped BigOperators

/-- The first contraction reads the query array at (b, h, s, e). -/
theorem lidx_v0_eq (j : S2x8x4096x4096.Idx) (e : Fin 64) :
    lidx_main_v0 j e = ix4 (j 0) (j 1) (j 2) e :=
  funext fun a => Fin.ext (by match a with | ⟨0, _⟩ => rfl | ⟨1, _⟩ => rfl | ⟨2, _⟩ => rfl | ⟨3, _⟩ => rfl)

/-- The first contraction reads the key array at (b, h, n, e). -/
theorem ridx_v0_eq (j : S2x8x4096x4096.Idx) (e : Fin 64) :
    ridx_main_v0 j e = ix4 (j 0) (j 1) (j 3) e :=
  funext fun a => Fin.ext (by match a with | ⟨0, _⟩ => rfl | ⟨1, _⟩ => rfl | ⟨2, _⟩ => rfl | ⟨3, _⟩ => rfl)

/-- One entry of the clipped, scaled score array is the specification's score of query row s against key
    row n: max((∑ₑ q[b, h, s, e] · k[b, h, n, e]) / c₆₄, c₀). -/
theorem score_eq (q k : (⟨S2x8x4096x64, .f32⟩ : BufTy).Contents (Elt Ideal)) (j : S2x8x4096x4096.Idx) :
    val_main_v3 (F := Ideal) q k j
      = Cert.Spec.score (fun e => q (ix4 (j 0) (j 1) (j 2) e)) (fun e => k (ix4 (j 0) (j 1) (j 3) e)) := by
  rw [val_main_v3_apply, val_main_v2_apply, val_main_v0_apply, val_main_v1_apply, val_main_cst_apply,
    val_main_call0_v0_apply, val_main_call0_cst_apply, Ideal.maximumf_def, Ideal.hostDivf_def,
    Ideal.ofBits_def, Ideal.ofBits_def]
  unfold Cert.Spec.score
  simp only [lidx_v0_eq, ridx_v0_eq]
  rfl

/-- The reference program's result, read at one index, is the specification's sum over the key rows. -/
theorem ref_eq_attn (q k v : (⟨Cert.ReferenceIdeal.S2x8x4096x64, .f32⟩ : BufTy).Contents (Elt Ideal)) :
    Cert.ReferenceIdeal.Read.val_main_v4 (F := Ideal) q k v = Cert.Spec.attn q k v := by
  funext i
  rw [val_main_v4_apply]
  unfold Cert.Spec.attn
  refine Finset.sum_congr rfl fun n _ => ?_
  rw [score_eq]
  have hr : ridx_main_v4 i n = ix4 (i 0) (i 1) n (i 3) :=
    funext fun a => Fin.ext (by match a with | ⟨0, _⟩ => rfl | ⟨1, _⟩ => rfl | ⟨2, _⟩ => rfl | ⟨3, _⟩ => rfl)
  rw [hr]
  rfl

end Cert.RefValue

end
-- ==== Proof.lean ====
/-
  A tiled attention kernel without softmax equals its one-line reference on the extended reals.

  Both programs compute, for each batch entry b, head h, query row s and feature d,

      out[b, h, s, d] = ∑ₙ max((∑ₑ q[b, h, s, e] · k[b, h, n, e]) / 64, 0) · v[b, h, n, d],

  the sum over all 4096 key rows n. The reference does it with two whole contractions. The kernel works on a grid
  of 2 · 8 · 4 points, one per batch entry, head and tile of 1024 query rows; it keeps the head's key and value rows
  in two scratch buffers that only the first of the head's four points fills, and inside a point it walks the key
  rows in eight chunks of 512, adding each chunk's scores times the chunk's value rows to an accumulator that
  starts at zero. It multiplies by the float 2⁻⁶ where the reference divides by the float 64.

  Three facts of extended-real arithmetic make the two equal, and they hold at the infinities too, so the
  finiteness of the inputs is never used: x · 2⁻⁶ = x / 64 for every extended real x; 0 + x = x; and a sum over
  4096 positions is the sum over eight chunks of the sums inside each chunk (addition is commutative and
  associative). A change of float format is the identity on the extended reals, so the kernel's narrowing casts
  leave the values alone.

  The modules: Spec (the formula above as one function of the three arrays), RefValue (the reference is that
  function), KernelAcc (the body's recurrence over its loads), KernelTrips (what the body's stores leave, read as
  that recurrence), KernelPoints (the scratch buffers point after point), KernelEntry (the recurrence read at an
  entry is the formula), KernelArray (the 64 tiles make the whole array). The ideal pass rewrote nothing, so the
  kernel's idealization is its own text and that conjunct is trivial.
-/
import proofs.«143925_j72378788872873_2_alg».proof.Defs
import proofs.«143925_j72378788872873_2_alg».proof.Proof.Gen.Kernel
import proofs.«143925_j72378788872873_2_alg».proof.Proof.Gen.Kernel.Frame
import proofs.«143925_j72378788872873_2_alg».proof.Proof.Gen.KernelIdeal
import proofs.«143925_j72378788872873_2_alg».proof.Proof.Gen.KernelIdeal.Frame
import proofs.«143925_j72378788872873_2_alg».proof.Proof.Gen.KernelIdeal.Value
import proofs.«143925_j72378788872873_2_alg».proof.Proof.Gen.ReferenceIdeal
import proofs.«143925_j72378788872873_2_alg».proof.Proof.Gen.ReferenceIdeal.Run
import proofs.«143925_j72378788872873_2_alg».proof.Proof.Gen.ReferenceIdeal.Read
import proofs.«143925_j72378788872873_2_alg».proof.Proof.Gen.Pre_finite_inputs
import proofs.«143925_j72378788872873_2_alg».proof.Proof.KernelArray
import proofs.«143925_j72378788872873_2_alg».proof.Proof.RefValue

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the three arguments both programs end with the specification of those arguments in
    their result arrays: the kernel tile by tile, the reference by its two contractions. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.RefValue.ref_eq_attn _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
